-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x64 : Shape := ⟨2, ![512, 64]⟩
abbrev S64 : Shape := ⟨1, ![64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S512x64 .f32) (main_arg6 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x512 .f32) (main_arg1 : FVec F S512x64 .f32) (main_arg2 : FVec F S64 .f32) (main_arg3 : FVec F S512x64 .f32) (main_arg4 : FVec F S64 .f32) (main_arg5 : FVec F S512x64 .f32) (main_arg6 : FVec F S64 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_v13 main_v16
-- ==== Kernel.lean ====
abbrev S4x4096x512 : Shape := ⟨3, ![4, 4096, 512]⟩
abbrev S512x64 : Shape := ⟨2, ![512, 64]⟩
abbrev S64 : Shape := ⟨1, ![64]⟩
abbrev S512x192 : Shape := ⟨2, ![512, 192]⟩
abbrev S192 : Shape := ⟨1, ![192]⟩
abbrev S4x4096x64 : Shape := ⟨3, ![4, 4096, 64]⟩
abbrev S1x4096x512 : Shape := ⟨3, ![1, 4096, 512]⟩
abbrev S1x512x64 : Shape := ⟨3, ![1, 512, 64]⟩
abbrev S4096x64 : Shape := ⟨2, ![4096, 64]⟩
abbrev S64x4096 : Shape := ⟨2, ![64, 4096]⟩
abbrev S4096x512 : Shape := ⟨2, ![4096, 512]⟩
abbrev S4096x192 : Shape := ⟨2, ![4096, 192]⟩
abbrev S1x192 : Shape := ⟨2, ![1, 192]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S512x192, .f32⟩
  | .hbm, ⟨8, _⟩ => ⟨S192, .f32⟩
  | .hbm, ⟨9, _⟩ => ⟨S4x4096x64, .f32⟩
  | .local _ .vmem, ⟨0, _⟩ => ⟨S1x4096x512, .f32⟩
  | .local _ .vmem, ⟨1, _⟩ => ⟨S1x4096x512, .f32⟩
  | .local _ .vmem, ⟨2, _⟩ => ⟨S512x192, .f32⟩
  | .local _ .vmem, ⟨3, _⟩ => ⟨S192, .f32⟩
  | .local _ .vmem, ⟨4, _⟩ => ⟨S1x512x64, .f32⟩
  | .local _ .vmem, ⟨5, _⟩ => ⟨S1x512x64, .f32⟩
  | .local _ .vmem, ⟨6, _⟩ => ⟨S4096x64, .bf16⟩
  | .local _ .vmem, ⟨7, _⟩ => ⟨S64x4096, .bf16⟩
  | .local _ .vmem, ⟨8, _⟩ => ⟨S4096x64, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S512x64_S512x64_S512x64_S512x192_d1 : Shape.Concatenates [S512x64, S512x64, S512x64] S512x192 1
  concatenates_S64_S64_S64_S192_d0 : Shape.Concatenates [S64, S64, S64] S192 0
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S4096x192 : S1x192.Broadcasts S4096x192
  slices_S4096x192_o0_0_S4096x64 : S4096x192.Slices ![0, 0] S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  slices_S4096x192_o0_64_S4096x64 : S4096x192.Slices ![0, 64] S4096x64
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  slices_S4096x192_o0_128_S4096x64 : S4096x192.Slices ![0, 128] S4096x64
  h_S512x64 : 0 < S512x64.numel
  reduces_S512x4096_S512 : S512x4096.Reduces [1] S512
  shapeCasts_S512_S512x1 : S512.ShapeCasts S512x1
  broadcasts_S512x1_S512x4096 : S512x1.Broadcasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S4096x512_S512x192_S4096x192_1_0_0_1_n_n_wf : DotDims.WF S4096x512 S512x192 S4096x192 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .f32 = 32 ∨ (Rect.block (s := S4x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x192.size a ≤ S512x192.size a
  hwx0_1 : ∀ i : grid0.Coords, EltTy.bits .f32 = 32 ∨ (Rect.block (s := S512x192) S512x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x4096x64.size a
  hwx0_3 : ∀ i : grid0.Coords, EltTy.bits .f32 = 32 ∨ (Rect.block (s := S4x4096x64) S1x512x64.size (cc0_transform_3 i) (hinb0_3 i)).WholeWords (EltTy.packing .f32)

variable [Facts₀]

def dot_S4096x512_S512x192_S4096x192_1_0_0_1_n_n : DotDims S4096x512 S512x192 S4096x192 where
  lhsContracting := [1]
  rhsContracting := [0]
  lhsNonContracting := [0]
  rhsNonContracting := [1]
  lhsBatch := []
  rhsBatch := []
  wf := dot_S4096x512_S512x192_S4096x192_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x64 : Shape := ⟨2, ![512, 64]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S1x1x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x64_S4x4096x64_2_0_01_1_n_n_wf : DotDims.WF S4x4096x512 S512x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S512x64_S4x4096x64_2_0_01_1_n_n : DotDims S4x4096x512 S512x64 S4x4096x64 where
  lhsContracting := [2]
  rhsContracting := [0]
  lhsNonContracting := [0, 1]
  rhsNonContracting := [1]
  lhsBatch := []
  rhsBatch := []
  wf := dot_S4x4096x512_S512x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KKit.lean ====
/-
  The launch side of the fused attention program, stated once for the proof of its run: the two host
  concatenations before the region and what the arrays hold when the region is entered (`V`), each window's
  block at a grid point (`iblk`), the one branch of the body (taken exactly at the first query tile of a batch,
  i.e. at the points divisible by 8), and the region's invariant with the three scratch buffers named.
-/
import proofs.«159111_j16844861735369_2_alg».proof.Proof.Gen.Kernel.Launch
import proofs.«159111_j16844861735369_2_alg».proof.Proof.Gen.Kernel.Skeleton
import proofs.«159111_j16844861735369_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two concatenations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not: an input window's block only changes when it is fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not: an input window's block only changes when it is fetched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not: an input window's block only changes when it is fetched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The seven argument arrays end as launched: the first is an input window's array, which the pipeline only
    reads; the other six are staged by no window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one branch: the second grid coordinate (the query tile) is zero. -/
abbrev cond0_0 (i : grid0.Coords) : Prop := (Scalar.cmpi .ne (Scalar.extui (Scalar.cmpi .eq (BitVec.ofNat 32 (i 1).val) 0#32)) 0#32) = 1#1
/-- It holds exactly at the points divisible by 8 (the grid is 4 batches by 8 tiles, the tile the fast axis). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S1x512x64 .f32 := (Memref.whole cc0_stg3_0 : Memref sig .tc .vmem S1x512x64 .f32).view
abbrev ms0_0 (t : Fin cfg0.N) : Memref sig .tc .vmem S1x4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (queries, transposed keys, values of the current batch): whole scoped buffers. -/
abbrev scM0_0 : Memref sig .tc .vmem S4096x64 .bf16 := Memref.whole cc0_scratch0
abbrev scM0_1 : Memref sig .tc .vmem S64x4096 .bf16 := Memref.whole cc0_scratch1
abbrev scM0_2 : Memref sig .tc .vmem S4096x64 .bf16 := Memref.whole cc0_scratch2

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KRunA.lean ====
/-
  The body at the first query tile of a batch (the branch taken): it projects the whole x-block once into the three
  scratch buffers and then computes the tile's attention from what it has just stored. The lists found here are the
  stores each buffer ends with.
-/
import proofs.«159111_j16844861735369_2_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body when the branch is taken: the three input buffers at their blocks, the output buffer and the
    three scratch buffers at anything; afterwards the inputs as they were and each of the other four with its stores
    written. -/
noncomputable def kernelRun0_A (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    Σ' (L3 : List (View.Piece (Elt F) S1x512x64 .f32)) (LS0 : List (View.Piece (Elt F) S4096x64 .bf16)) (LS1 : List (View.Piece (Elt F) S64x4096 .bf16)), { LS2 : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.KRunB.lean ====
/-
  The body at the later query tiles of a batch (the branch not taken): it reads the three scratch buffers as the
  batch's first tile left them and stores the tile's attention; the scratch buffers are not written.
-/
import proofs.«159111_j16844861735369_2_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body when the branch is not taken: the scratch buffers at known contents, the three input buffers
    untouched at whatever they hold, the output buffer at anything; afterwards the output with its store written and
    everything else as it was. -/
noncomputable def kernelRun0_B (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) :
    { L3 : List (View.Piece (Elt F) S1x512x64 .f32) //
      ∀ (E : Set ℕ) (K : PUnit → sProp 𝕄),
        iprop((∃ d, owns (c : Thread nD τ) arg5 fullShare d) ∗ owns (c : Thread nD τ) arg6 fullShare xs0 ∗ owns (c : Thread nD τ) arg7 fullShare xs1 ∗ owns (c : Thread nD τ) arg8 fullShare xs2
            ∗ (iprop((∃ f, arg5.view.loc (c : Thread nD τ) ↦[arg5.view.set]{fullShare} arg5.view.writes (Elt F) f L3) ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg6.eq_unread hfs0; obtain rfl := harg7.eq_unread hfs1; obtain rfl := harg8.eq_unread hfs2
    sl_exec (disch := first | exact hc0)
    sl_step
    iapply Hk
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Fr

end
-- ==== Proof.KFrame.lean ====
/-
  The run of the fused attention program. What the buffers hold point by point: the three scratch buffers hold, after
  any point of batch `b`, the projections the FIRST tile of that batch stored (queries, transposed keys, values of the
  whole batch), and the output buffer holds the attention tile computed from them. With that as the region's invariant
  every point's body runs, so the program terminates, faults nowhere, and leaves each array of the pipeline at what
  the points wrote back.
-/
import proofs.«159111_j16844861735369_2_alg».proof.Proof.KRunA
import proofs.«159111_j16844861735369_2_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

/-- The scratch operands as views: what they hold is stated through them. -/
abbrev VS0_0 : View sig .tc .vmem S4096x64 .bf16 := scM0_0.view
abbrev VS0_1 : View sig .tc .vmem S64x4096 .bf16 := scM0_1.view
abbrev VS0_2 : View sig .tc .vmem S4096x64 .bf16 := scM0_2.view

/-- At a batch's first tile the stores into the output buffer cover it. -/
theorem cover0_A_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y
theorem scover0_A_0 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S4096x64.size (by sl_kernel_rfl) y
theorem scover0_A_1 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S64x4096.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S64x4096.size (by sl_kernel_rfl) y
theorem scover0_A_2 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S4096x64.size (by sl_kernel_rfl) y

/-- What a batch's first tile leaves in the output buffer and in the three scratch buffers. -/
def out0_A_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)
def sout0_A_0 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S4096x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)
def sout0_A_1 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S64x4096 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)
def sout0_A_2 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S4096x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- At a later tile the store into the output buffer covers it. -/
theorem cover0_B_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) (y : S1x512x64.Idx) :
    ∃ pc ∈ (kernelRun0_B c i arg2 harg2 arg3 harg3 arg4 harg4 arg5 harg5 arg6 harg6 arg7 harg7 arg8 harg8 hc0 xs0 xs1 xs2).1, y ∈ pc.1.set :=
  View.cover_of_tiledL (kernelRun0_B c i arg2 harg2 arg3 harg3 arg4 harg4 arg5 harg5 arg6 harg6 arg7 harg7 arg8 harg8 hc0 xs0 xs1 xs2).1 S1x512x64.size (by sl_kernel_rfl) y
/-- What a later tile leaves in the output buffer, from the scratch contents it found. -/
def out0_B_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 xs0 xs1 xs2).1)

/-! ## The buffers point by point -/

/-- The first point of the batch that point `t` belongs to. -/
def tb (t : Fin cfg0.N) : Fin cfg0.N := ⟨t.val - t.val % 8, lt_of_le_of_lt (Nat.sub_le _ _) t.isLt⟩
theorem tb_mod (t : Fin cfg0.N) : (tb t).val % 8 = 0 := by
  show (t.val - t.val % 8) % 8 = 0
  omega
theorem tb_of_mod (t : Fin cfg0.N) (h : t.val % 8 = 0) : tb t = t := Fin.ext (by show t.val - t.val % 8 = t.val; omega)
theorem tb_pred (t : Fin cfg0.N) (h : ¬t.val % 8 = 0) (hp : t.val - 1 < cfg0.N) : tb ⟨t.val - 1, hp⟩ = tb t :=
  Fin.ext (by show (t.val - 1) - (t.val - 1) % 8 = t.val - t.val % 8; omega)

/-- What the three scratch buffers hold after a batch's first point `u`. -/
def scrA (c : Dev nD) (u : Fin cfg0.N) (hu : u.val % 8 = 0) : Vec F S4096x64 .bf16 × Vec F S64x4096 .bf16 × Vec F S4096x64 .bf16 :=
  (sout0_A_0 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u),
   sout0_A_1 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u),
   sout0_A_2 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u))

theorem scrA_congr (c : Dev nD) (u u' : Fin cfg0.N) (hu : u.val % 8 = 0) (hu' : u'.val % 8 = 0) (h : u = u') :
    scrA m c u hu = scrA m c u' hu' := by subst h; rfl

/-- What the three scratch buffers hold after ANY point: what its batch's first point stored. -/
def scrAt (c : Dev nD) (t : Fin cfg0.N) : Vec F S4096x64 .bf16 × Vec F S64x4096 .bf16 × Vec F S4096x64 .bf16 :=
  scrA m c (tb t) (tb_mod t)

theorem scrAt_of_mod (c : Dev nD) (t : Fin cfg0.N) (h : t.val % 8 = 0) : scrAt m c t = scrA m c t h :=
  scrA_congr m c _ _ _ _ (tb_of_mod t h)
theorem scrAt_pred (c : Dev nD) (t : Fin cfg0.N) (h : ¬t.val % 8 = 0) (hp : t.val - 1 < cfg0.N) :
    scrAt m c ⟨t.val - 1, hp⟩ = scrAt m c t :=
  scrA_congr m c _ _ _ _ (tb_pred t h hp)

/-- What the output buffer holds after point `t`. -/
def outAt (c : Dev nD) (t : Fin cfg0.N) : Vec F S1x512x64 .f32 :=
  if h0 : t.val % 8 = 0 then
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
  else
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (scrAt m c t).1 (scrAt m c t).2.1 (scrAt m c t).2.2

/-- The region's invariant before position `n`: before the first point the scratch buffers hold anything; afterwards
    they hold what the point before left. -/
def PhiS (c : Dev nD) : (n : ℕ) → n ≤ cfg0.N → sProp 𝕄
  | 0, _ => Pipeline.ΦA spec0 c
  | n + 1, hn => iprop(iprop(owns (c : Thread nD τ) scM0_0 fullShare (scrAt m c ⟨n, hn⟩).1 ∗ owns (c : Thread nD τ) scM0_1 fullShare (scrAt m c ⟨n, hn⟩).2.1 ∗ owns (c : Thread nD τ) scM0_2 fullShare (scrAt m c ⟨n, hn⟩).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c ⟨n, hn⟩).1 ∗ owns (c : Thread nD τ) scM0_1 fullShare (scrAt m c ⟨n, hn⟩).2.1 ∗ owns (c : Thread nD τ) scM0_2 fullShare (scrAt m c ⟨n, hn⟩).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c ⟨n - 1, by omega⟩).1 ∗ owns (c : Thread nD τ) scM0_1 fullShare (scrAt m c ⟨n - 1, by omega⟩).2.1 ∗ owns (c : Thread nD τ) scM0_2 fullShare (scrAt m c ⟨n - 1, by omega⟩).2.2) ∗ (∃ r, prngReg c r)) := by
  cases n with
  | zero => exact absurd rfl hz
  | succ n => rfl

/-! ## The pipeline's proof data -/

/-- The arrays as the region finds them; after the body each input buffer at its block and the output buffer at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. At a batch's first tile the invariant hands it the scratch buffers at anything (the very
    first point) or at the previous batch's projections, and takes them back at this batch's; at a later tile it hands
    them at this batch's projections and takes them back unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [scrAt_of_mod m c t h0]
    unfold scrA outAt; rw [dif_pos h0]
    unfold out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · have hz : t.val ≠ 0 := fun hz => h0 (by rw [hz])
    unfold outAt; rw [dif_neg h0]
    unfold out0_B_3; (try dsimp only)
    rw [PhiS_castSucc m c t, PhiS_pos m c _ _ hz, scrAt_pred m c t h0]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h => h0 ((hcond0_0 t).mp h)) (scrAt m c t).1 (scrAt m c t).2.1 (scrAt m c t).2.2).2 Set.univ _)
    isplitl [H3]; · iexists _; iexact H3
    isplitl [HS0]; · iexact HS0
    isplitl [HS1]; · iexact HS1
    isplitl [HS2]; · iexact HS2
    iintro ⟨⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KIKit.lean ====
/-
  The launch side of the fused attention program, stated once for the proof of its run: the two host
  concatenations before the region and what the arrays hold when the region is entered (`V`), each window's
  block at a grid point (`iblk`), the one branch of the body (taken exactly at the first query tile of a batch,
  i.e. at the points divisible by 8), and the region's invariant with the three scratch buffers named.
-/
import proofs.«159111_j16844861735369_2_alg».proof.Proof.Gen.KernelIdeal.Launch
import proofs.«159111_j16844861735369_2_alg».proof.Proof.Gen.KernelIdeal.Skeleton
import proofs.«159111_j16844861735369_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two concatenations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not: an input window's block only changes when it is fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not: an input window's block only changes when it is fetched. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not: an input window's block only changes when it is fetched. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The seven argument arrays end as launched: the first is an input window's array, which the pipeline only
    reads; the other six are staged by no window and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one branch: the second grid coordinate (the query tile) is zero. -/
abbrev cond0_0 (i : grid0.Coords) : Prop := (Scalar.cmpi .ne (Scalar.extui (Scalar.cmpi .eq (BitVec.ofNat 32 (i 1).val) 0#32)) 0#32) = 1#1
/-- It holds exactly at the points divisible by 8 (the grid is 4 batches by 8 tiles, the tile the fast axis). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S1x512x64 .f32 := (Memref.whole cc0_stg3_0 : Memref sig .tc .vmem S1x512x64 .f32).view
abbrev ms0_0 (t : Fin cfg0.N) : Memref sig .tc .vmem S1x4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (queries, transposed keys, values of the current batch): whole scoped buffers. -/
abbrev scM0_0 : Memref sig .tc .vmem S4096x64 .bf16 := Memref.whole cc0_scratch0
abbrev scM0_1 : Memref sig .tc .vmem S64x4096 .bf16 := Memref.whole cc0_scratch1
abbrev scM0_2 : Memref sig .tc .vmem S4096x64 .bf16 := Memref.whole cc0_scratch2

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KIRunA.lean ====
/-
  The body at the first query tile of a batch (the branch taken): it projects the whole x-block once into the three
  scratch buffers and then computes the tile's attention from what it has just stored. The lists found here are the
  stores each buffer ends with.
-/
import proofs.«159111_j16844861735369_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body when the branch is taken: the three input buffers at their blocks, the output buffer and the
    three scratch buffers at anything; afterwards the inputs as they were and each of the other four with its stores
    written. -/
noncomputable def kernelRun0_A (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    Σ' (L3 : List (View.Piece (Elt F) S1x512x64 .f32)) (LS0 : List (View.Piece (Elt F) S4096x64 .bf16)) (LS1 : List (View.Piece (Elt F) S64x4096 .bf16)), { LS2 : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KIRunB.lean ====
/-
  The body at the later query tiles of a batch (the branch not taken): it reads the three scratch buffers as the
  batch's first tile left them and stores the tile's attention; the scratch buffers are not written.
-/
import proofs.«159111_j16844861735369_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body when the branch is not taken: the scratch buffers at known contents, the three input buffers
    untouched at whatever they hold, the output buffer at anything; afterwards the output with its store written and
    everything else as it was. -/
noncomputable def kernelRun0_B (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) :
    { L3 : List (View.Piece (Elt F) S1x512x64 .f32) //
      ∀ (E : Set ℕ) (K : PUnit → sProp 𝕄),
        iprop((∃ d, owns (c : Thread nD τ) arg5 fullShare d) ∗ owns (c : Thread nD τ) arg6 fullShare xs0 ∗ owns (c : Thread nD τ) arg7 fullShare xs1 ∗ owns (c : Thread nD τ) arg8 fullShare xs2
            ∗ (iprop((∃ f, arg5.view.loc (c : Thread nD τ) ↦[arg5.view.set]{fullShare} arg5.view.writes (Elt F) f L3) ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg6.eq_unread hfs0; obtain rfl := harg7.eq_unread hfs1; obtain rfl := harg8.eq_unread hfs2
    sl_exec (disch := first | exact hc0)
    sl_step
    iapply Hk
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Fr

end
-- ==== Proof.KIFrame.lean ====
/-
  The run of the fused attention program. What the buffers hold point by point: the three scratch buffers hold, after
  any point of batch `b`, the projections the FIRST tile of that batch stored (queries, transposed keys, values of the
  whole batch), and the output buffer holds the attention tile computed from them. With that as the region's invariant
  every point's body runs, so the program terminates, faults nowhere, and leaves each array of the pipeline at what
  the points wrote back.
-/
import proofs.«159111_j16844861735369_2_alg».proof.Proof.KIRunA
import proofs.«159111_j16844861735369_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

/-- The scratch operands as views: what they hold is stated through them. -/
abbrev VS0_0 : View sig .tc .vmem S4096x64 .bf16 := scM0_0.view
abbrev VS0_1 : View sig .tc .vmem S64x4096 .bf16 := scM0_1.view
abbrev VS0_2 : View sig .tc .vmem S4096x64 .bf16 := scM0_2.view

/-- At a batch's first tile the stores into the output buffer cover it. -/
theorem cover0_A_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y
theorem scover0_A_0 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S4096x64.size (by sl_kernel_rfl) y
theorem scover0_A_1 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S64x4096.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S64x4096.size (by sl_kernel_rfl) y
theorem scover0_A_2 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S4096x64.size (by sl_kernel_rfl) y

/-- What a batch's first tile leaves in the output buffer and in the three scratch buffers. -/
def out0_A_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)
def sout0_A_0 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S4096x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)
def sout0_A_1 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S64x4096 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)
def sout0_A_2 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) : Vec F S4096x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- At a later tile the store into the output buffer covers it. -/
theorem cover0_B_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) (y : S1x512x64.Idx) :
    ∃ pc ∈ (kernelRun0_B c i arg2 harg2 arg3 harg3 arg4 harg4 arg5 harg5 arg6 harg6 arg7 harg7 arg8 harg8 hc0 xs0 xs1 xs2).1, y ∈ pc.1.set :=
  View.cover_of_tiledL (kernelRun0_B c i arg2 harg2 arg3 harg3 arg4 harg4 arg5 harg5 arg6 harg6 arg7 harg7 arg8 harg8 hc0 xs0 xs1 xs2).1 S1x512x64.size (by sl_kernel_rfl) y
/-- What a later tile leaves in the output buffer, from the scratch contents it found. -/
def out0_B_3 (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 xs0 xs1 xs2).1)

/-! ## The buffers point by point -/

/-- The first point of the batch that point `t` belongs to. -/
def tb (t : Fin cfg0.N) : Fin cfg0.N := ⟨t.val - t.val % 8, lt_of_le_of_lt (Nat.sub_le _ _) t.isLt⟩
theorem tb_mod (t : Fin cfg0.N) : (tb t).val % 8 = 0 := by
  show (t.val - t.val % 8) % 8 = 0
  omega
theorem tb_of_mod (t : Fin cfg0.N) (h : t.val % 8 = 0) : tb t = t := Fin.ext (by show t.val - t.val % 8 = t.val; omega)
theorem tb_pred (t : Fin cfg0.N) (h : ¬t.val % 8 = 0) (hp : t.val - 1 < cfg0.N) : tb ⟨t.val - 1, hp⟩ = tb t :=
  Fin.ext (by show (t.val - 1) - (t.val - 1) % 8 = t.val - t.val % 8; omega)

/-- What the three scratch buffers hold after a batch's first point `u`. -/
def scrA (c : Dev nD) (u : Fin cfg0.N) (hu : u.val % 8 = 0) : Vec F S4096x64 .bf16 × Vec F S64x4096 .bf16 × Vec F S4096x64 .bf16 :=
  (sout0_A_0 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u),
   sout0_A_1 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u),
   sout0_A_2 c (grid0.coords u) (ms0_0 u) (hs0_0 u) (ms0_1 u) (hs0_1 u) (ms0_2 u) (hs0_2 u) (ms0_3 u) (hs0_3 u) scM0_0 (Memref.isWhole_whole _) scM0_1 (Memref.isWhole_whole _) scM0_2 (Memref.isWhole_whole _) ((hcond0_0 u).mpr hu) (iblk m c 0 u) (iblk m c 1 u) (iblk m c 2 u))

theorem scrA_congr (c : Dev nD) (u u' : Fin cfg0.N) (hu : u.val % 8 = 0) (hu' : u'.val % 8 = 0) (h : u = u') :
    scrA m c u hu = scrA m c u' hu' := by subst h; rfl

/-- What the three scratch buffers hold after ANY point: what its batch's first point stored. -/
def scrAt (c : Dev nD) (t : Fin cfg0.N) : Vec F S4096x64 .bf16 × Vec F S64x4096 .bf16 × Vec F S4096x64 .bf16 :=
  scrA m c (tb t) (tb_mod t)

theorem scrAt_of_mod (c : Dev nD) (t : Fin cfg0.N) (h : t.val % 8 = 0) : scrAt m c t = scrA m c t h :=
  scrA_congr m c _ _ _ _ (tb_of_mod t h)
theorem scrAt_pred (c : Dev nD) (t : Fin cfg0.N) (h : ¬t.val % 8 = 0) (hp : t.val - 1 < cfg0.N) :
    scrAt m c ⟨t.val - 1, hp⟩ = scrAt m c t :=
  scrA_congr m c _ _ _ _ (tb_pred t h hp)

/-- What the output buffer holds after point `t`. -/
def outAt (c : Dev nD) (t : Fin cfg0.N) : Vec F S1x512x64 .f32 :=
  if h0 : t.val % 8 = 0 then
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
  else
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (scrAt m c t).1 (scrAt m c t).2.1 (scrAt m c t).2.2

/-- The region's invariant before position `n`: before the first point the scratch buffers hold anything; afterwards
    they hold what the point before left. -/
def PhiS (c : Dev nD) : (n : ℕ) → n ≤ cfg0.N → sProp 𝕄
  | 0, _ => Pipeline.ΦA spec0 c
  | n + 1, hn => iprop(iprop(owns (c : Thread nD τ) scM0_0 fullShare (scrAt m c ⟨n, hn⟩).1 ∗ owns (c : Thread nD τ) scM0_1 fullShare (scrAt m c ⟨n, hn⟩).2.1 ∗ owns (c : Thread nD τ) scM0_2 fullShare (scrAt m c ⟨n, hn⟩).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c ⟨n, hn⟩).1 ∗ owns (c : Thread nD τ) scM0_1 fullShare (scrAt m c ⟨n, hn⟩).2.1 ∗ owns (c : Thread nD τ) scM0_2 fullShare (scrAt m c ⟨n, hn⟩).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c ⟨n - 1, by omega⟩).1 ∗ owns (c : Thread nD τ) scM0_1 fullShare (scrAt m c ⟨n - 1, by omega⟩).2.1 ∗ owns (c : Thread nD τ) scM0_2 fullShare (scrAt m c ⟨n - 1, by omega⟩).2.2) ∗ (∃ r, prngReg c r)) := by
  cases n with
  | zero => exact absurd rfl hz
  | succ n => rfl

/-! ## The pipeline's proof data -/

/-- The arrays as the region finds them; after the body each input buffer at its block and the output buffer at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. At a batch's first tile the invariant hands it the scratch buffers at anything (the very
    first point) or at the previous batch's projections, and takes them back at this batch's; at a later tile it hands
    them at this batch's projections and takes them back unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [scrAt_of_mod m c t h0]
    unfold scrA outAt; rw [dif_pos h0]
    unfold out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · have hz : t.val ≠ 0 := fun hz => h0 (by rw [hz])
    unfold outAt; rw [dif_neg h0]
    unfold out0_B_3; (try dsimp only)
    rw [PhiS_castSucc m c t, PhiS_pos m c _ _ hz, scrAt_pred m c t h0]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) _ _ _ _ _ _ _ _ _ _ _ _ _ _ (fun h => h0 ((hcond0_0 t).mp h)) (scrAt m c t).1 (scrAt m c t).2.1 (scrAt m c t).2.2).2 Set.univ _)
    isplitl [H3]; · iexists _; iexact H3
    isplitl [HS0]; · iexact HS0
    isplitl [HS1]; · iexact HS1
    isplitl [HS2]; · iexact HS2
    iintro ⟨⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.KIPieces.lean ====
/-
  What the found stores say, as the kernel's payloads: a batch's first tile leaves the three projections of its
  x-block in the scratch buffers, and every tile leaves in the output buffer the attention of its 512 query rows
  (rows `512 * tile …` of the query scratch) against the whole key and value scratch.
-/
import proofs.«159111_j16844861735369_2_alg».proof.Proof.KIFrame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- The query tile of grid point `i`: the 512 rows of the query scratch that the point's tile owns. -/
def qtile (i : grid0.Coords) (X : Vec F S4096x64 .bf16) : Vec F S512x64 .bf16 :=
  View.ld X (Rect.unit (s := S4096x64) (k0_off1 i) S512x64.size (k0_off1_inb i))

theorem sout0_A_0_eq (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    sout0_A_0 c i arg2 harg2 arg3 harg3 arg4 harg4 arg5 harg5 arg6 harg6 arg7 harg7 arg8 harg8 hc0 x0 x1 x2 = k0_pay2 x0 x1 x2 := by
  unfold sout0_A_0
  rw [View.read_writes_junk_eq_canon]
  unfold kernelRun0_A
  dsimp only
  sl_unfold_run_names
  rw [View.canon_unit_zero hz2]
  simp only [View.readAt_eq_ld, harg2.read_unread, harg3.read_unread, harg4.read_unread,
    View.ld_unit_zero (S := S1x4096x512) hz3, View.ld_unit_zero (S := S512x192) hz2, View.ld_unit_zero (S := S192) hz1]

theorem sout0_A_1_eq (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    sout0_A_1 c i arg2 harg2 arg3 harg3 arg4 harg4 arg5 harg5 arg6 harg6 arg7 harg7 arg8 harg8 hc0 x0 x1 x2 = k0_pay3 x0 x1 x2 := by
  unfold sout0_A_1
  rw [View.read_writes_junk_eq_canon]
  unfold kernelRun0_A
  dsimp only
  sl_unfold_run_names
  rw [View.canon_unit_zero hz2]
  simp only [View.readAt_eq_ld, harg2.read_unread, harg3.read_unread, harg4.read_unread,
    View.ld_unit_zero (S := S1x4096x512) hz3, View.ld_unit_zero (S := S512x192) hz2, View.ld_unit_zero (S := S192) hz1]

theorem sout0_A_2_eq (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    sout0_A_2 c i arg2 harg2 arg3 harg3 arg4 harg4 arg5 harg5 arg6 harg6 arg7 harg7 arg8 harg8 hc0 x0 x1 x2 = k0_pay4 x0 x1 x2 := by
  unfold sout0_A_2
  rw [View.read_writes_junk_eq_canon]
  unfold kernelRun0_A
  dsimp only
  sl_unfold_run_names
  rw [View.canon_unit_zero hz2]
  simp only [View.readAt_eq_ld, harg2.read_unread, harg3.read_unread, harg4.read_unread,
    View.ld_unit_zero (S := S1x4096x512) hz3, View.ld_unit_zero (S := S512x192) hz2, View.ld_unit_zero (S := S192) hz1]

theorem out0_A_3_eq (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : cond0_0 i)
    (x0 : Vec F S1x4096x512 .f32) (x1 : Vec F S512x192 .f32) (x2 : Vec F S192 .f32) :
    out0_A_3 c i arg2 harg2 arg3 harg3 arg4 harg4 arg5 harg5 arg6 harg6 arg7 harg7 arg8 harg8 hc0 x0 x1 x2 = k0_pay5 (qtile i (k0_pay2 x0 x1 x2)) (k0_pay3 x0 x1 x2) (k0_pay4 x0 x1 x2) := by
  unfold out0_A_3
  rw [View.read_writes_junk_eq_canon]
  unfold kernelRun0_A
  dsimp only
  sl_unfold_run_names
  rw [View.canon_unit_zero hz3]
  rw [View.readCov_unit_zero _ hz2, View.readCov_unit_zero _ hz2, View.readAt_writes_junk_eq_canon, View.canon_unit_zero hz2]
  simp only [View.readAt_eq_ld, harg2.read_unread, harg3.read_unread, harg4.read_unread,
    View.ld_unit_zero (S := S1x4096x512) hz3, View.ld_unit_zero (S := S512x192) hz2, View.ld_unit_zero (S := S192) hz1]
  rfl

theorem out0_B_3_eq (c : Dev nD) (i : grid0.Coords) (arg2 : Memref sig .tc .vmem S1x4096x512 .f32) (harg2 : arg2.IsWhole) (arg3 : Memref sig .tc .vmem S512x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S64x4096 .bf16) (harg7 : arg7.IsWhole) (arg8 : Memref sig .tc .vmem S4096x64 .bf16) (harg8 : arg8.IsWhole) (hc0 : ¬cond0_0 i)
    (xs0 : Vec F S4096x64 .bf16) (xs1 : Vec F S64x4096 .bf16) (xs2 : Vec F S4096x64 .bf16) :
    out0_B_3 c i arg2 harg2 arg3 harg3 arg4 harg4 arg5 harg5 arg6 harg6 arg7 harg7 arg8 harg8 hc0 xs0 xs1 xs2 = k0_pay5 (qtile i xs0) xs1 xs2 := by
  unfold out0_B_3
  rw [View.read_writes_junk_eq_canon]
  unfold kernelRun0_B
  dsimp only
  sl_unfold_run_names
  rw [View.canon_unit_zero hz3]
  simp only [View.readAt_eq_ld, harg6.read_unread, harg7.read_unread, harg8.read_unread,
    View.ld_unit_zero (S := S64x4096) hz2, View.ld_unit_zero (S := S4096x64) hz2]
  rfl

end Cert.KernelIdeal.Val

end
-- ==== Proof.KIBlocks.lean ====
/-
  The pipeline's geometry, decided once over the 32 grid points (4 batches, 8 query tiles each, the tile the fast
  axis): the x-window's block is batch `t / 8`, the weight and bias windows are their whole arrays, the output
  window's block is rows `512 * (t % 8) …` of batch `t / 8`, and the query tile the body loads starts at row
  `512 * (t % 8)` of the query scratch. From these: each input block read at an index, what the two host
  concatenations hold, the output buffer after each point as the attention payload of the batch's projections, and
  that the output blocks tile the result array.
-/
import proofs.«159111_j16844861735369_2_alg».proof.Proof.KIPieces
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem

open Idealize.ShloMosaic.ValueIdx Idealize.ShloMosaic.StableHlo

variable {F : FTy → Type} [FloatOps F]
variable (m : (ℓ : Loc nD τ sig) → Buf (Elt F) ℓ) (ρ : Dev nD → PrngReg)

/-- The printed index maps and the query tile's offset, decided over the grid. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val / 8 ∧ win0_3.index t (1 : Fin 3) = t.val % 8 ∧ win0_3.index t (2 : Fin 3) = 0
    ∧ k0_off1 (grid0.coords t) (0 : Fin 2) = 512 * (t.val % 8) ∧ k0_off1 (grid0.coords t) (1 : Fin 2) = 0 :=
  (by decide +kernel : ∀ t : Fin grid0.N, _)

/-! ## What the host concatenations hold -/

theorem V_main_v0 (c : Dev nD) :
    V m c main_v0 = concatenate S512x192 1 [⟨S512x64, m ((c : Thread nD τ).loc main_arg1)⟩, ⟨S512x64, m ((c : Thread nD τ).loc main_arg3)⟩, ⟨S512x64, m ((c : Thread nD τ).loc main_arg5)⟩] Facts₀.concatenates_S512x64_S512x64_S512x64_S512x192_d1 := by
  dsimp only [V, hostOps0]; after_results; rfl

theorem V_main_v1 (c : Dev nD) :
    V m c main_v1 = concatenate S192 0 [⟨S64, m ((c : Thread nD τ).loc main_arg2)⟩, ⟨S64, m ((c : Thread nD τ).loc main_arg4)⟩, ⟨S64, m ((c : Thread nD τ).loc main_arg6)⟩] Facts₀.concatenates_S64_S64_S64_S192_d0 := by
  dsimp only [V, hostOps0]; after_results; rfl

/-! ## The input blocks read at an index -/

/-- The x-window's block at point `t` is batch `t / 8` of `x`. -/
theorem iblk0_apply (c : Dev nD) (t : Fin cfg0.N) (s : Fin 4096) (w : Fin 512) :
    (iblk m c 0 t : S1x4096x512.Idx → Elt F .f32) (ix3 0 s w) = m ((c : Thread nD τ).loc main_arg0) (ix3 ⟨t.val / 8, by have := t.isLt; have : cfg0.N = 32 := N_0; omega⟩ s w) := by
  obtain ⟨e0, e1, e2, -⟩ := idx_facts t
  rw [← V_main_arg0 m c]
  show V m c main_arg0 (((cfg0.win 0).blk t).view.emb (ix3 0 s w)) = V m c main_arg0 _
  refine congrArg _ ?_
  funext a; apply Fin.ext
  match a with
  | ⟨0, _⟩ => show win0_0.index t (0 : Fin 3) * 1 + 1 * 0 = t.val / 8; omega
  | ⟨1, _⟩ => show win0_0.index t (1 : Fin 3) * 4096 + 1 * s.val = s.val; omega
  | ⟨2, _⟩ => show win0_0.index t (2 : Fin 3) * 512 + 1 * w.val = w.val; omega

/-- The weight window's block is the whole concatenated weight. -/
theorem iblk1_eq (c : Dev nD) (t : Fin cfg0.N) :
    (iblk m c 1 t : S512x192.Idx → Elt F .f32) = V m c main_v0 := by
  obtain ⟨-, -, -, e0, e1, -⟩ := idx_facts t
  funext y
  show V m c main_v0 (((cfg0.win 1).blk t).view.emb y) = V m c main_v0 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 192 + 1 * (y 1).val = (y 1).val; omega

/-- The bias window's block is the whole concatenated bias. -/
theorem iblk2_eq (c : Dev nD) (t : Fin cfg0.N) :
    (iblk m c 2 t : S192.Idx → Elt F .f32) = V m c main_v1 := by
  obtain ⟨-, -, -, -, -, e0, -⟩ := idx_facts t
  funext y
  show V m c main_v1 (((cfg0.win 2).blk t).view.emb y) = V m c main_v1 y
  refine congrArg _ ?_
  funext a; apply Fin.ext
  match a with
  | ⟨0, _⟩ => show win0_2.index t (0 : Fin 1) * 192 + 1 * (y 0).val = (y 0).val; omega

/-- The query tile of point `t` read at a row: row `512 * (t % 8) + r` of the scratch. -/
theorem qtile_apply (t : Fin cfg0.N) (X : Vec F S4096x64 .bf16) (r : Fin 512) (e : Fin 64) :
    qtile (grid0.coords t) X (ix2 r e) = X (ix2 ⟨512 * (t.val % 8) + r.val, by have := r.isLt; omega⟩ e) := by
  obtain ⟨-, -, -, -, -, -, -, -, -, e0, e1⟩ := idx_facts t
  show X ((Rect.unit (s := S4096x64) (k0_off1 (grid0.coords t)) S512x64.size (k0_off1_inb (grid0.coords t))).idx (ix2 r e)) = _
  refine congrArg _ ?_
  funext a; apply Fin.ext
  match a with
  | ⟨0, _⟩ => show k0_off1 (grid0.coords t) (0 : Fin 2) + 1 * r.val = 512 * (t.val % 8) + r.val; omega
  | ⟨1, _⟩ => show k0_off1 (grid0.coords t) (1 : Fin 2) + 1 * e.val = e.val; omega

/-! ## The buffers after each point, as payloads -/

/-- The scratch buffers after point `t`: the three projections of the batch's x-block. -/
theorem scrAt_eq (c : Dev nD) (t : Fin cfg0.N) :
    scrAt m c t = (k0_pay2 (iblk m c 0 (tb t)) (iblk m c 1 (tb t)) (iblk m c 2 (tb t)),
                   k0_pay3 (iblk m c 0 (tb t)) (iblk m c 1 (tb t)) (iblk m c 2 (tb t)),
                   k0_pay4 (iblk m c 0 (tb t)) (iblk m c 1 (tb t)) (iblk m c 2 (tb t))) := by
  unfold scrAt scrA
  rw [sout0_A_0_eq, sout0_A_1_eq, sout0_A_2_eq]

/-- The output buffer after point `t`: the attention of the point's query tile against the batch's keys and values. -/
theorem outAt_eq (c : Dev nD) (t : Fin cfg0.N) :
    outAt m c t = k0_pay5 (qtile (grid0.coords t) (scrAt m c t).1) (scrAt m c t).2.1 (scrAt m c t).2.2 := by
  unfold outAt
  by_cases h0 : t.val % 8 = 0
  · rw [dif_pos h0, out0_A_3_eq, scrAt_of_mod m c t h0]
    unfold scrA
    rw [sout0_A_0_eq, sout0_A_1_eq, sout0_A_2_eq]
  · rw [dif_neg h0, out0_B_3_eq]

/-! ## The output blocks tile the result -/

/-- An element of the output block at point `t` sits at batch `t / 8`, row `512 * (t % 8) + r`. -/
theorem emb3 (t : Fin cfg0.N) (r : Fin 512) (e : Fin 64) :
    ((cfg0.win 3).blk t).view.emb (ix3 0 r e) = ix3 ⟨t.val / 8, by have := t.isLt; have : cfg0.N = 32 := N_0; omega⟩ ⟨512 * (t.val % 8) + r.val, by have := r.isLt; omega⟩ e := by
  obtain ⟨-, -, -, -, -, -, e0, e1, e2, -⟩ := idx_facts t
  funext a; apply Fin.ext
  match a with
  | ⟨0, _⟩ => show win0_3.index t (0 : Fin 3) * 1 + 1 * 0 = t.val / 8; omega
  | ⟨1, _⟩ => show win0_3.index t (1 : Fin 3) * 512 + 1 * r.val = 512 * (t.val % 8) + r.val; omega
  | ⟨2, _⟩ => show win0_3.index t (2 : Fin 3) * 64 + 1 * e.val = e.val; omega

theorem mem_blk3 (t : Fin cfg0.N) (i : S4x4096x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v2).slice (win0_3.rect t)).set ↔ _
  rw [View.set_slice_whole, Rect.mem_set_unit]
  exact Iff.rfl

/-- Every index of the result is in the block of the point `8 * batch + row / 512`. -/
theorem cover3 (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  have hN : cfg0.N = 32 := N_0
  refine ⟨⟨8 * (i 0).val + (i 1).val / 512, by omega⟩, flush0_3 _, ?_⟩
  rw [mem_blk3]
  obtain ⟨-, -, -, -, -, -, e0, e1, e2, -⟩ := idx_facts ⟨8 * (i 0).val + (i 1).val / 512, by omega⟩
  intro a
  match a with
  | ⟨0, _⟩ => show win0_3.index _ (0 : Fin 3) * 1 ≤ (i 0).val ∧ (i 0).val < win0_3.index _ (0 : Fin 3) * 1 + 1; dsimp only at e0; omega
  | ⟨1, _⟩ => show win0_3.index _ (1 : Fin 3) * 512 ≤ (i 1).val ∧ (i 1).val < win0_3.index _ (1 : Fin 3) * 512 + 512; dsimp only at e1; omega
  | ⟨2, _⟩ => show win0_3.index _ (2 : Fin 3) * 64 ≤ (i 2).val ∧ (i 2).val < win0_3.index _ (2 : Fin 3) * 64 + 64; dsimp only at e2; omega

end Cert.KernelIdeal.Val

end
-- ==== Proof.KernelLib.lean ====
/-
  Small general readings used by the kernel's arithmetic: a plain matrix product into the zero accumulator read at
  an entry as a sum over the shared axis, the keep-dims column forms of a shape cast and a broadcast read at an entry,
  and the two one-axis lane reductions (sum and maximum) of a matrix read at a row.
-/
import Idealize.ShloMosaic.PureOps.Ideal
import Idealize.ShloMosaic.PureOps.Ideal.Laws
import Idealize.ShloMosaic.Lib.ValueIdx
import Idealize.ShloMosaic.Lib.ValueLayout

noncomputable section

namespace Cert.Attn.KernelAlg

open Idealize.ShloMosaic Idealize.ShloMosaic.ValueIdx

/-- A product of an `M × K` by a `K × N` matrix (contracting the left operand's columns with the right operand's
    rows) into the zero accumulator reads, at `(r, c)`, the sum over the shared axis of the entries' products. -/
theorem matmul_plain_apply {M K N : ℕ} {φ₁ φ₂ : FTy}
    (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (lhs : FVec Ideal ⟨2, ![M, K]⟩ φ₁) (rhs : FVec Ideal ⟨2, ![K, N]⟩ φ₂) (r : Fin M) (c : Fin N) :
    FloatOps.matmul D none lhs rhs (constant (F := Ideal) ⟨2, ![M, N]⟩ .f32 0x00000000#32) (ix2 r c)
      = ∑ k : Fin K, lhs (ix2 r k) * rhs (ix2 k c) := by
  obtain ⟨lc, rc, ln, rn, lb, rb, wf⟩ := D
  dsimp only at hlc hrc hln hrn hlb hrb
  subst hlc hrc hln hrn hlb hrb
  rw [Ideal.matmul_constant_zero_apply]
  generalize hD : (⟨[1], [0], [0], [1], [], [], wf⟩ : DotDims ⟨2, ![M, K]⟩ ⟨2, ![K, N]⟩ ⟨2, ![M, N]⟩) = D
  have hlc : D.lhsContracting = [1] := by rw [← hD]
  have hrc : D.rhsContracting = [0] := by rw [← hD]
  have hr : D.contr.rank = 1 := by rw [← hD]; rfl
  have hs : D.contr.size ⟨0, by omega⟩ = K := by subst hD; rfl
  rw [← Equiv.sum_comp (contrEquiv1 D K hr hs).symm]
  refine Finset.sum_congr rfl fun k _ => ?_
  have hl : D.lhsIdx (ix2 r c) ((contrEquiv1 D K hr hs).symm k) = ix2 r k := by
    funext a; refine Fin.ext ?_
    match a with
    | ⟨0, _⟩ => subst hD; rfl
    | ⟨1, _⟩ => exact (D.lhsIdx_val_of_single hlc _ _).trans (contrEquiv1_symm_val D K hr hs k)
  have hrr : D.rhsIdx (ix2 r c) ((contrEquiv1 D K hr hs).symm k) = ix2 k c := by
    funext a; refine Fin.ext ?_
    match a with
    | ⟨0, _⟩ => exact (D.rhsIdx_val_of_single hrc _ _).trans (contrEquiv1_symm_val D K hr hs k)
    | ⟨1, _⟩ => subst hD; rfl
  rw [hl, hrr]

/-- The scale `0.125` denotes the real `1 / 8`. -/
theorem ofBits_eighth : Ideal.ofBits .f32 0x3E000000#32 = ((1 / 8 : ℝ) : EReal) := by
  simp [Ideal.ofBits, Ideal.ieee, -EReal.coe_mul]; norm_num

/-- The maximum's starting word denotes the bottom element. -/
theorem ofBits_negInf : Ideal.ofBits .f32 0xFF800000#32 = ⊥ := by
  simp [Ideal.ofBits, Ideal.ieee]

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum of a matrix along its rows (one lane reduction with the zero accumulator) reads, at row `r`, the sum of
    that row's entries. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; refine Fin.ext ?_
  match ax with
  | ⟨0, _⟩ => rfl
  | ⟨1, _⟩ => rfl

/-- The maximum of a matrix along its rows (one lane reduction from the accumulator's value) reads, at row `r`, the
    fold of `max` over that row's entries from the accumulator's value. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  refine congrArg src ?_
  funext ax; refine Fin.ext ?_
  match ax with
  | ⟨0, _⟩ => rfl
  | ⟨1, _⟩ => rfl

end Cert.Attn.KernelAlg

end
-- ==== Proof.KernelProj.lean ====
/-
  The kernel's three projection payloads read at an entry. The shared value is the product of the `[4096, 512]` block of
  `x` with the concatenated `[512, 192]` weight (into the zero accumulator) plus the `[192]` bias row broadcast over the
  rows; the query, key and value payloads are its column slices at offsets 0, 64 and 128, the key one transposed. At the
  ideal instance the format changes and the same-shape casts are the identity. Then the two host concatenations that
  build the weight and the bias, read at an entry, and the three payloads over them as the specification's projection.
-/
import proofs.«159111_j16844861735369_2_alg».proof.Proof.Gen.KernelIdeal.Skeleton
import proofs.«159111_j16844861735369_2_alg».proof.Proof.KernelLib

noncomputable section

namespace Cert.Attn.KernelAlg

open Cert.KernelIdeal Cert.KernelIdeal.Gen Idealize.ShloMosaic Idealize.ShloMosaic.ValueIdx

/-- The shared projection value at row `s`, column `c` of the 192: row `s` of the block times column `c` of the weight,
    plus the bias at `c`. -/
theorem pay1_apply (v26 : Vec Ideal S1x4096x512 .f32) (v29 : Vec Ideal S512x192 .f32) (v33 : Vec Ideal S192 .f32)
    (s : Fin 4096) (c : Fin 192) :
    k0_pay1 (F := Ideal) v26 v29 v33 (ix2 s c)
      = (∑ w : Fin 512, v26 (ix3 0 s w) * v29 (ix2 w c)) + v33 (ix1 c) := by
  unfold k0_pay1
  simp only [matmul]
  rw [addf_apply, matmul_plain_apply _ rfl rfl rfl rfl rfl rfl]
  congr 1
  · refine Finset.sum_congr rfl fun w _ => ?_
    rw [truncf_apply, truncf_apply, shapeCast_1ab_ab_apply, shapeCast_self]
  · rw [broadcastTo_1b_ab_apply, shapeCast_a_1a_apply, shapeCast_self]

/-- The query payload at row `s`, feature `e`: the shared value at column `e`. -/
theorem pay2_apply (v26 : Vec Ideal S1x4096x512 .f32) (v29 : Vec Ideal S512x192 .f32) (v33 : Vec Ideal S192 .f32)
    (s : Fin 4096) (e : Fin 64) :
    k0_pay2 (F := Ideal) v26 v29 v33 (ix2 s e)
      = (∑ w : Fin 512, v26 (ix3 0 s w) * v29 (ix2 w ⟨e.val, by omega⟩)) + v33 (ix1 ⟨e.val, by omega⟩) := by
  unfold k0_pay2
  rw [shapeCast_self, truncf_apply,
    slice2_axis1_apply 0 _ _ s e (⟨e.val, by omega⟩ : Fin 192) (by show e.val = 0 + e.val; omega), pay1_apply]

/-- The key payload (transposed) at feature `e`, row `s`: the shared value at column `64 + e`. -/
theorem pay3_apply (v26 : Vec Ideal S1x4096x512 .f32) (v29 : Vec Ideal S512x192 .f32) (v33 : Vec Ideal S192 .f32)
    (e : Fin 64) (s : Fin 4096) :
    k0_pay3 (F := Ideal) v26 v29 v33 (ix2 e s)
      = (∑ w : Fin 512, v26 (ix3 0 s w) * v29 (ix2 w ⟨64 + e.val, by omega⟩)) + v33 (ix1 ⟨64 + e.val, by omega⟩) := by
  unfold k0_pay3
  rw [shapeCast_self, transpose_ix2_apply, truncf_apply,
    slice2_axis1_apply 64 _ _ s e (⟨64 + e.val, by omega⟩ : Fin 192) rfl, pay1_apply]

/-- The value payload at row `s`, feature `e`: the shared value at column `128 + e`. -/
theorem pay4_apply (v26 : Vec Ideal S1x4096x512 .f32) (v29 : Vec Ideal S512x192 .f32) (v33 : Vec Ideal S192 .f32)
    (s : Fin 4096) (e : Fin 64) :
    k0_pay4 (F := Ideal) v26 v29 v33 (ix2 s e)
      = (∑ w : Fin 512, v26 (ix3 0 s w) * v29 (ix2 w ⟨128 + e.val, by omega⟩)) + v33 (ix1 ⟨128 + e.val, by omega⟩) := by
  unfold k0_pay4
  rw [shapeCast_self, truncf_apply,
    slice2_axis1_apply 128 _ _ s e (⟨128 + e.val, by omega⟩ : Fin 192) rfl, pay1_apply]

/-! ## The host concatenations read at an entry -/

/-- Columns `0 … 63` of the concatenated weight are the first piece's. -/
theorem concatW_q (a b c : FVec Ideal S512x64 .f32) (w : Fin 512) (e : Fin 64) :
    concatenate S512x192 1 [⟨S512x64, a⟩, ⟨S512x64, b⟩, ⟨S512x64, c⟩]
        Facts₀.concatenates_S512x64_S512x64_S512x64_S512x192_d1 (ix2 w ⟨e.val, by omega⟩) = a (ix2 w e) := by
  refine concatenate_apply_piece (t := S512x192) 1 [⟨S512x64, a⟩, ⟨S512x64, b⟩, ⟨S512x64, c⟩] _ _ 0 ?_ S512x64 a rfl rfl 0 rfl (ix2 w e) (fun x hx => by match x with | ⟨0, _⟩ => rfl | ⟨1, _⟩ => exact absurd rfl hx) ?_
  · show 0 < 3
    omega
  · show 0 + e.val = e.val
    omega

/-- Columns `64 … 127` of the concatenated weight are the second piece's. -/
theorem concatW_k (a b c : FVec Ideal S512x64 .f32) (w : Fin 512) (e : Fin 64) :
    concatenate S512x192 1 [⟨S512x64, a⟩, ⟨S512x64, b⟩, ⟨S512x64, c⟩]
        Facts₀.concatenates_S512x64_S512x64_S512x64_S512x192_d1 (ix2 w ⟨64 + e.val, by omega⟩) = b (ix2 w e) := by
  refine concatenate_apply_piece (t := S512x192) 1 [⟨S512x64, a⟩, ⟨S512x64, b⟩, ⟨S512x64, c⟩] _ _ 1 ?_ S512x64 b rfl rfl 64 rfl (ix2 w e) (fun x hx => by match x with | ⟨0, _⟩ => rfl | ⟨1, _⟩ => exact absurd rfl hx) ?_
  · show 1 < 3
    omega
  · show 64 + e.val = 64 + e.val
    omega

/-- Columns `128 … 191` of the concatenated weight are the third piece's. -/
theorem concatW_v (a b c : FVec Ideal S512x64 .f32) (w : Fin 512) (e : Fin 64) :
    concatenate S512x192 1 [⟨S512x64, a⟩, ⟨S512x64, b⟩, ⟨S512x64, c⟩]
        Facts₀.concatenates_S512x64_S512x64_S512x64_S512x192_d1 (ix2 w ⟨128 + e.val, by omega⟩) = c (ix2 w e) := by
  refine concatenate_apply_piece (t := S512x192) 1 [⟨S512x64, a⟩, ⟨S512x64, b⟩, ⟨S512x64, c⟩] _ _ 2 ?_ S512x64 c rfl rfl 128 rfl (ix2 w e) (fun x hx => by match x with | ⟨0, _⟩ => rfl | ⟨1, _⟩ => exact absurd rfl hx) ?_
  · show 2 < 3
    omega
  · show 128 + e.val = 128 + e.val
    omega

/-- Entries `0 … 63` of the concatenated bias are the first piece's. -/
theorem concatB_q (a b c : FVec Ideal S64 .f32) (e : Fin 64) :
    concatenate S192 0 [⟨S64, a⟩, ⟨S64, b⟩, ⟨S64, c⟩] Facts₀.concatenates_S64_S64_S64_S192_d0 (ix1 ⟨e.val, by omega⟩)
      = a (ix1 e) := by
  refine concatenate_apply_piece (t := S192) 0 [⟨S64, a⟩, ⟨S64, b⟩, ⟨S64, c⟩] _ _ 0 ?_ S64 a rfl rfl 0 rfl (ix1 e) (fun x hx => by match x with | ⟨0, _⟩ => exact absurd rfl hx) ?_
  · show 0 < 3
    omega
  · show 0 + e.val = e.val
    omega

/-- Entries `64 … 127` of the concatenated bias are the second piece's. -/
theorem concatB_k (a b c : FVec Ideal S64 .f32) (e : Fin 64) :
    concatenate S192 0 [⟨S64, a⟩, ⟨S64, b⟩, ⟨S64, c⟩] Facts₀.concatenates_S64_S64_S64_S192_d0 (ix1 ⟨64 + e.val, by omega⟩)
      = b (ix1 e) := by
  refine concatenate_apply_piece (t := S192) 0 [⟨S64, a⟩, ⟨S64, b⟩, ⟨S64, c⟩] _ _ 1 ?_ S64 b rfl rfl 64 rfl (ix1 e) (fun x hx => by match x with | ⟨0, _⟩ => exact absurd rfl hx) ?_
  · show 1 < 3
    omega
  · show 64 + e.val = 64 + e.val
    omega

/-- Entries `128 … 191` of the concatenated bias are the third piece's. -/
theorem concatB_v (a b c : FVec Ideal S64 .f32) (e : Fin 64) :
    concatenate S192 0 [⟨S64, a⟩, ⟨S64, b⟩, ⟨S64, c⟩] Facts₀.concatenates_S64_S64_S64_S192_d0 (ix1 ⟨128 + e.val, by omega⟩)
      = c (ix1 e) := by
  refine concatenate_apply_piece (t := S192) 0 [⟨S64, a⟩, ⟨S64, b⟩, ⟨S64, c⟩] _ _ 2 ?_ S64 c rfl rfl 128 rfl (ix1 e) (fun x hx => by match x with | ⟨0, _⟩ => exact absurd rfl hx) ?_
  · show 2 < 3
    omega
  · show 128 + e.val = 128 + e.val
    omega

/-! ## The three payloads over the concatenated weight and bias: the projections of the block's rows -/

/-- The query payload over the concatenations: row `s` of the block times column `e` of the query weight, plus the
    query bias at `e`. -/
theorem projQ (xb : Vec Ideal S1x4096x512 .f32) (Wq Wk Wv : FVec Ideal S512x64 .f32) (bq bk bv : FVec Ideal S64 .f32)
    (s : Fin 4096) (e : Fin 64) :
    k0_pay2 (F := Ideal) xb
        (concatenate S512x192 1 [⟨S512x64, Wq⟩, ⟨S512x64, Wk⟩, ⟨S512x64, Wv⟩] Facts₀.concatenates_S512x64_S512x64_S512x64_S512x192_d1)
        (concatenate S192 0 [⟨S64, bq⟩, ⟨S64, bk⟩, ⟨S64, bv⟩] Facts₀.concatenates_S64_S64_S64_S192_d0) (ix2 s e)
      = (∑ w : Fin 512, xb (ix3 0 s w) * Wq (ix2 w e)) + bq (ix1 e) := by
  rw [pay2_apply, concatB_q]
  exact congrArg (· + bq (ix1 e)) (Finset.sum_congr rfl fun w _ => by rw [concatW_q])

/-- The key payload (transposed) over the concatenations: row `s` of the block times column `e` of the key weight,
    plus the key bias at `e`. -/
theorem projK (xb : Vec Ideal S1x4096x512 .f32) (Wq Wk Wv : FVec Ideal S512x64 .f32) (bq bk bv : FVec Ideal S64 .f32)
    (e : Fin 64) (s : Fin 4096) :
    k0_pay3 (F := Ideal) xb
        (concatenate S512x192 1 [⟨S512x64, Wq⟩, ⟨S512x64, Wk⟩, ⟨S512x64, Wv⟩] Facts₀.concatenates_S512x64_S512x64_S512x64_S512x192_d1)
        (concatenate S192 0 [⟨S64, bq⟩, ⟨S64, bk⟩, ⟨S64, bv⟩] Facts₀.concatenates_S64_S64_S64_S192_d0) (ix2 e s)
      = (∑ w : Fin 512, xb (ix3 0 s w) * Wk (ix2 w e)) + bk (ix1 e) := by
  rw [pay3_apply, concatB_k]
  exact congrArg (· + bk (ix1 e)) (Finset.sum_congr rfl fun w _ => by rw [concatW_k])

/-- The value payload over the concatenations: row `s` of the block times column `e` of the value weight, plus the
    value bias at `e`. -/
theorem projV (xb : Vec Ideal S1x4096x512 .f32) (Wq Wk Wv : FVec Ideal S512x64 .f32) (bq bk bv : FVec Ideal S64 .f32)
    (s : Fin 4096) (e : Fin 64) :
    k0_pay4 (F := Ideal) xb
        (concatenate S512x192 1 [⟨S512x64, Wq⟩, ⟨S512x64, Wk⟩, ⟨S512x64, Wv⟩] Facts₀.concatenates_S512x64_S512x64_S512x64_S512x192_d1)
        (concatenate S192 0 [⟨S64, bq⟩, ⟨S64, bk⟩, ⟨S64, bv⟩] Facts₀.concatenates_S64_S64_S64_S192_d0) (ix2 s e)
      = (∑ w : Fin 512, xb (ix3 0 s w) * Wv (ix2 w e)) + bv (ix1 e) := by
  rw [pay4_apply, concatB_v]
  exact congrArg (· + bv (ix1 e)) (Finset.sum_congr rfl fun w _ => by rw [concatW_v])

end Cert.Attn.KernelAlg

end
-- ==== Proof.Spec.lean ====
/-
  The specification both programs are compared against: single-head self-attention over the extended reals.
  For a batch `p`, the query, key and value rows are affine images of the rows of `x`
  (`proj`: row `s` of `x[p]` times a 512 x 64 matrix plus a bias row); row `q` of the result is the
  softmax-weighted sum of the value rows, the weights being `exp (score - rowmax) / sum` with
  `score q k = <Q q, K k> / 8` (`attnRow`). Nothing here mentions a program.
-/
import Idealize.ShloMosaic.PureOps.Ideal
import Idealize.ShloMosaic.Lib.ValueIdx

noncomputable section

namespace Cert.Attn

open Idealize.ShloMosaic Idealize.ShloMosaic.ValueIdx

/-- Row `s` of batch `p` of `x` times column `e` of `W`, plus `b e`. -/
def proj (x : (⟨3, ![4, 4096, 512]⟩ : Shape).Idx → EReal) (W : (⟨2, ![512, 64]⟩ : Shape).Idx → EReal)
    (b : (⟨1, ![64]⟩ : Shape).Idx → EReal) (p : Fin 4) (s : Fin 4096) (e : Fin 64) : EReal :=
  (∑ w : Fin 512, x (ix3 p s w) * W (ix2 w e)) + b (ix1 e)

/-- The scaled score of one query row against key row `k`: the inner product over the 64 features, times 1/8. -/
def scoreRow (qrow : Fin 64 → EReal) (Kf : Fin 4096 → Fin 64 → EReal) (k : Fin 4096) : EReal :=
  (∑ e : Fin 64, qrow e * Kf k e) * ((1 / 8 : ℝ) : EReal)

/-- The largest score of the row (the fold of `max` from the bottom element). -/
def maxRow (qrow : Fin 64 → EReal) (Kf : Fin 4096 → Fin 64 → EReal) : EReal :=
  (Finset.univ : Finset (Fin 4096)).fold max ⊥ (fun k => scoreRow qrow Kf k)

/-- The unnormalised softmax weight of key `k`. -/
def expRow (qrow : Fin 64 → EReal) (Kf : Fin 4096 → Fin 64 → EReal) (k : Fin 4096) : EReal :=
  Ideal.exp (scoreRow qrow Kf k - maxRow qrow Kf)

/-- One row of attention: the softmax weights of the row's scores against every key, applied to the value rows. -/
def attnRow (qrow : Fin 64 → EReal) (Kf Vf : Fin 4096 → Fin 64 → EReal) (e : Fin 64) : EReal :=
  ∑ k : Fin 4096, Ideal.div (expRow qrow Kf k) (∑ k' : Fin 4096, expRow qrow Kf k') * Vf k e

/-- The whole result at batch `p`, query row `q`, feature `e`. -/
def Zat (x : (⟨3, ![4, 4096, 512]⟩ : Shape).Idx → EReal)
    (Wq : (⟨2, ![512, 64]⟩ : Shape).Idx → EReal) (bq : (⟨1, ![64]⟩ : Shape).Idx → EReal)
    (Wk : (⟨2, ![512, 64]⟩ : Shape).Idx → EReal) (bk : (⟨1, ![64]⟩ : Shape).Idx → EReal)
    (Wv : (⟨2, ![512, 64]⟩ : Shape).Idx → EReal) (bv : (⟨1, ![64]⟩ : Shape).Idx → EReal)
    (p : Fin 4) (q : Fin 4096) (e : Fin 64) : EReal :=
  attnRow (proj x Wq bq p q) (proj x Wk bk p) (proj x Wv bv p) e

/-- The result array as one function of the seven argument arrays. -/
def Z (x : (⟨3, ![4, 4096, 512]⟩ : Shape).Idx → EReal)
    (Wq : (⟨2, ![512, 64]⟩ : Shape).Idx → EReal) (bq : (⟨1, ![64]⟩ : Shape).Idx → EReal)
    (Wk : (⟨2, ![512, 64]⟩ : Shape).Idx → EReal) (bk : (⟨1, ![64]⟩ : Shape).Idx → EReal)
    (Wv : (⟨2, ![512, 64]⟩ : Shape).Idx → EReal) (bv : (⟨1, ![64]⟩ : Shape).Idx → EReal) :
    (⟨3, ![4, 4096, 64]⟩ : Shape).Idx → EReal :=
  fun i => Zat x Wq bq Wk bk Wv bv (i 0) (i 1) (i 2)

theorem Z_ix3 (x : (⟨3, ![4, 4096, 512]⟩ : Shape).Idx → EReal)
    (Wq : (⟨2, ![512, 64]⟩ : Shape).Idx → EReal) (bq : (⟨1, ![64]⟩ : Shape).Idx → EReal)
    (Wk : (⟨2, ![512, 64]⟩ : Shape).Idx → EReal) (bk : (⟨1, ![64]⟩ : Shape).Idx → EReal)
    (Wv : (⟨2, ![512, 64]⟩ : Shape).Idx → EReal) (bv : (⟨1, ![64]⟩ : Shape).Idx → EReal)
    (p : Fin 4) (q : Fin 4096) (e : Fin 64) :
    Z x Wq bq Wk bk Wv bv (ix3 p q e) = Zat x Wq bq Wk bk Wv bv p q e := rfl

end Cert.Attn

end
-- ==== Proof.KernelAttn.lean ====
/-
  The kernel's attention tile read at an entry. For a tile of 512 query rows (`v6`), the transposed keys (`v7`) and the
  values (`v21`), the payload is: the scores `v6 · v7` times `1/8`; each row's maximum; the exponentials of the scores
  less the row's maximum; each row's sum of them; their quotient by that sum; and the product of the quotients with the
  values. At the ideal instance the format changes are the identity, so at row `r`, feature `e`, this is the
  specification's softmax-weighted sum of the value rows for the query row `r` of the tile.
-/
import proofs.«159111_j16844861735369_2_alg».proof.Proof.Gen.KernelIdeal.Skeleton
import proofs.«159111_j16844861735369_2_alg».proof.Proof.KernelLib
import proofs.«159111_j16844861735369_2_alg».proof.Proof.Spec

noncomputable section

namespace Cert.Attn.KernelAlg

open Cert.KernelIdeal Cert.KernelIdeal.Gen Idealize.ShloMosaic Idealize.ShloMosaic.ValueIdx

/-- An exponential at an entry is the exponential of the entry. -/
theorem exp_apply {s : Shape} {φ : FTy} (a : FVec Ideal s φ) (i : s.Idx) : exp a i = Ideal.exp (a i) := rfl

/-- The scale the kernel multiplies the scores by is `1 / 8`. -/
theorem scalar_eighth : (Scalar.ofBits (F := Ideal) .f32 0x3E000000#32) = ((1 / 8 : ℝ) : EReal) := ofBits_eighth

/-- The tile's row maximum at row `r`: the fold of `max` from the bottom element over the row. -/
theorem rowMax512 (src : FVec Ideal S512x4096 .f32) (hφ : FKind.Formats .f32)
    (hacc : (0xFF800000#32 : BitVec FTy.f32.bits) = 0xFF800000#32) (r : Fin 512) :
    multiReduction .maximumf [1] S512 src 0xFF800000#32 reduces_S512x4096_S512 hφ hacc (ix1 r)
      = (Finset.univ : Finset (Fin 4096)).fold max ⊥ (fun k => src (ix2 r k)) :=
  (rowMax_apply src _ _ hφ hacc r).trans (by rw [ofBits_negInf])

/-- The tile's row sum at row `r`: the sum over the row. -/
theorem rowSum512 (src : FVec Ideal S512x4096 .f32) (hφ : FKind.Formats .f32)
    (hacc : (0x00000000#32 : BitVec FTy.f32.bits) = 0x00000000#32) (r : Fin 512) :
    multiReduction .add [1] S512 src 0x00000000#32 reduces_S512x4096_S512 hφ hacc (ix1 r)
      = ∑ k : Fin 4096, src (ix2 r k) :=
  rowSum_apply src _ _ hφ hacc r

/-- The attention tile at row `r`, feature `e`: the specification's attention row for the tile's query row `r`. -/
theorem pay5_apply (v6 : Vec Ideal S512x64 .bf16) (v7 : Vec Ideal S64x4096 .bf16) (v21 : Vec Ideal S4096x64 .bf16)
    (r : Fin 512) (e : Fin 64) :
    k0_pay5 (F := Ideal) v6 v7 v21 (ix3 0 r e)
      = Cert.Attn.attnRow (fun e' => v6 (ix2 r e')) (fun k e' => v7 (ix2 e' k)) (fun k e' => v21 (ix2 k e')) e := by
  unfold k0_pay5
  simp only [matmul]
  rw [shapeCast_ab_1ab_apply, matmul_plain_apply _ rfl rfl rfl rfl rfl rfl]
  simp only [truncf_apply, divf_apply, broadcastTo_a1_ab_apply, shapeCast_a_a1_apply]
  rw [rowSum512]
  simp only [exp_apply, subf_apply, broadcastTo_a1_ab_apply, shapeCast_a_a1_apply]
  rw [rowMax512]
  simp only [mulf_apply, broadcast_apply,
    matmul_plain_apply dot_S512x64_S64x4096_S512x4096_1_0_0_1_n_n rfl rfl rfl rfl rfl rfl, scalar_eighth]
  simp only [Cert.Attn.attnRow, Cert.Attn.expRow, Cert.Attn.scoreRow, Cert.Attn.maxRow]

end Cert.Attn.KernelAlg

end
-- ==== Proof.KIValue.lean ====
/-
  The kernel's result array is the specification `Cert.Attn.Z` of the argument arrays. After any point of batch `b`
  the query scratch holds the query projection of `x[b]`, the key scratch its transposed key projection and the value
  scratch its value projection (the concatenated weight's three column blocks are the three weights); so the block
  a point writes back is the attention of its 512 query rows, which is the specification's block; the blocks tile
  the array.
-/
import proofs.«159111_j16844861735369_2_alg».proof.Proof.KIBlocks
import proofs.«159111_j16844861735369_2_alg».proof.Proof.KernelProj
import proofs.«159111_j16844861735369_2_alg».proof.Proof.KernelAttn
import proofs.«159111_j16844861735369_2_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem

open Idealize.ShloMosaic.ValueIdx

variable (m : (ℓ : Loc nD τ sig) → Buf (Elt Ideal) ℓ) (ρ : Dev nD → PrngReg)

/-! ## The three projections of a block, over variables -/

section Blocks
variable (B0 : Vec Ideal S1x4096x512 .f32) (B1 : Vec Ideal S512x192 .f32) (B2 : Vec Ideal S192 .f32)
  (X : (⟨3, ![4, 4096, 512]⟩ : Shape).Idx → EReal) (Wq Wk Wv : FVec Ideal S512x64 .f32) (bq bk bv : FVec Ideal S64 .f32) (b : Fin 4)
  (h0 : ∀ s w, B0 (ix3 0 s w) = X (ix3 b s w))
  (h1 : B1 = concatenate S512x192 1 [⟨S512x64, Wq⟩, ⟨S512x64, Wk⟩, ⟨S512x64, Wv⟩] Facts₀.concatenates_S512x64_S512x64_S512x64_S512x192_d1)
  (h2 : B2 = concatenate S192 0 [⟨S64, bq⟩, ⟨S64, bk⟩, ⟨S64, bv⟩] Facts₀.concatenates_S64_S64_S64_S192_d0)
include h0 h1 h2

theorem blockQ (s : Fin 4096) (e : Fin 64) : k0_pay2 (F := Ideal) B0 B1 B2 (ix2 s e) = Cert.Attn.proj X Wq bq b s e := by
  subst h1 h2
  refine (Cert.Attn.KernelAlg.projQ B0 Wq Wk Wv bq bk bv s e).trans ?_
  unfold Cert.Attn.proj; simp only [h0]

theorem blockK (e : Fin 64) (s : Fin 4096) : k0_pay3 (F := Ideal) B0 B1 B2 (ix2 e s) = Cert.Attn.proj X Wk bk b s e := by
  subst h1 h2
  refine (Cert.Attn.KernelAlg.projK B0 Wq Wk Wv bq bk bv e s).trans ?_
  unfold Cert.Attn.proj; simp only [h0]

theorem blockV (s : Fin 4096) (e : Fin 64) : k0_pay4 (F := Ideal) B0 B1 B2 (ix2 s e) = Cert.Attn.proj X Wv bv b s e := by
  subst h1 h2
  refine (Cert.Attn.KernelAlg.projV B0 Wq Wk Wv bq bk bv s e).trans ?_
  unfold Cert.Attn.proj; simp only [h0]

end Blocks

/-! ## The scratch buffers after a point -/

theorem tb_div (t : Fin cfg0.N) : (tb t).val / 8 = t.val / 8 := by
  show (t.val - t.val % 8) / 8 = t.val / 8
  omega

/-- The x-block of the batch's first point is batch `t / 8` of `x`. -/
theorem xblk (c : Dev nD) (t : Fin cfg0.N) (s : Fin 4096) (w : Fin 512) :
    (iblk m c 0 (tb t) : S1x4096x512.Idx → EReal) (ix3 0 s w) = m ((c : Thread nD τ).loc main_arg0) (ix3 ⟨t.val / 8, by have := t.isLt; have : cfg0.N = 32 := N_0; omega⟩ s w) := by
  refine (iblk0_apply m c (tb t) s w).trans ?_
  refine congrArg _ ?_
  funext a; apply Fin.ext
  match a with
  | ⟨0, _⟩ => exact tb_div t
  | ⟨1, _⟩ => rfl
  | ⟨2, _⟩ => rfl

theorem scrQ (c : Dev nD) (t : Fin cfg0.N) (s : Fin 4096) (e : Fin 64) :
    (scrAt m c t).1 (ix2 s e) = Cert.Attn.proj (m ((c : Thread nD τ).loc main_arg0)) (m ((c : Thread nD τ).loc main_arg1)) (m ((c : Thread nD τ).loc main_arg2)) ⟨t.val / 8, by have := t.isLt; have : cfg0.N = 32 := N_0; omega⟩ s e := by
  rw [scrAt_eq]
  exact blockQ (iblk m c 0 (tb t)) (iblk m c 1 (tb t)) (iblk m c 2 (tb t)) _ _ (m ((c : Thread nD τ).loc main_arg3)) (m ((c : Thread nD τ).loc main_arg5)) _ (m ((c : Thread nD τ).loc main_arg4)) (m ((c : Thread nD τ).loc main_arg6)) _
    (xblk m c t) ((iblk1_eq m c (tb t)).trans (V_main_v0 m c)) ((iblk2_eq m c (tb t)).trans (V_main_v1 m c)) s e

theorem scrK (c : Dev nD) (t : Fin cfg0.N) (s : Fin 4096) (e : Fin 64) :
    (scrAt m c t).2.1 (ix2 e s) = Cert.Attn.proj (m ((c : Thread nD τ).loc main_arg0)) (m ((c : Thread nD τ).loc main_arg3)) (m ((c : Thread nD τ).loc main_arg4)) ⟨t.val / 8, by have := t.isLt; have : cfg0.N = 32 := N_0; omega⟩ s e := by
  rw [scrAt_eq]
  exact blockK (iblk m c 0 (tb t)) (iblk m c 1 (tb t)) (iblk m c 2 (tb t)) _ (m ((c : Thread nD τ).loc main_arg1)) _ (m ((c : Thread nD τ).loc main_arg5)) (m ((c : Thread nD τ).loc main_arg2)) _ (m ((c : Thread nD τ).loc main_arg6)) _
    (xblk m c t) ((iblk1_eq m c (tb t)).trans (V_main_v0 m c)) ((iblk2_eq m c (tb t)).trans (V_main_v1 m c)) e s

theorem scrV (c : Dev nD) (t : Fin cfg0.N) (s : Fin 4096) (e : Fin 64) :
    (scrAt m c t).2.2 (ix2 s e) = Cert.Attn.proj (m ((c : Thread nD τ).loc main_arg0)) (m ((c : Thread nD τ).loc main_arg5)) (m ((c : Thread nD τ).loc main_arg6)) ⟨t.val / 8, by have := t.isLt; have : cfg0.N = 32 := N_0; omega⟩ s e := by
  rw [scrAt_eq]
  exact blockV (iblk m c 0 (tb t)) (iblk m c 1 (tb t)) (iblk m c 2 (tb t)) _ (m ((c : Thread nD τ).loc main_arg1)) (m ((c : Thread nD τ).loc main_arg3)) _ (m ((c : Thread nD τ).loc main_arg2)) (m ((c : Thread nD τ).loc main_arg4)) _ _
    (xblk m c t) ((iblk1_eq m c (tb t)).trans (V_main_v0 m c)) ((iblk2_eq m c (tb t)).trans (V_main_v1 m c)) s e

/-! ## What a point writes back, the cover, the array, the run -/

/-- What point `t` writes back is block `t` of the specification. -/
theorem flushed3_eq (c : Dev nD) (t : Fin cfg0.N) :
    (dats m 0 c).flushed 3 t = ((cfg0.win 3).blk t).view.read (Elt Ideal) (Cert.Attn.Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 3).cut (grid0.coords t) ((dats m 0 c).after 3 t) = _
  rw [after0_3, outAt_eq]
  funext j
  obtain ⟨a0, r, e, rfl⟩ : ∃ (a0 : Fin 1) (r : Fin 512) (e : Fin 64), j = ix3 a0 r e := ⟨j 0, j 1, j 2, eq_ix3 j⟩
  obtain rfl : a0 = 0 := Subsingleton.elim _ _
  show k0_pay5 (F := Ideal) (qtile (grid0.coords t) (scrAt m c t).1) (scrAt m c t).2.1 (scrAt m c t).2.2 (ix3 0 r e)
    = Cert.Attn.Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 3).blk t).view.emb (ix3 0 r e))
  rw [emb3 t r e, Cert.Attn.Z_ix3]
  refine (Cert.Attn.KernelAlg.pay5_apply _ _ _ r e).trans ?_
  unfold Cert.Attn.Zat
  have hq : (fun e' : Fin 64 => qtile (grid0.coords t) (scrAt m c t).1 (ix2 r e'))
      = Cert.Attn.proj (m ((c : Thread nD τ).loc main_arg0)) (m ((c : Thread nD τ).loc main_arg1)) (m ((c : Thread nD τ).loc main_arg2)) ⟨t.val / 8, by have := t.isLt; have : cfg0.N = 32 := N_0; omega⟩ ⟨512 * (t.val % 8) + r.val, by have := r.isLt; omega⟩ :=
    funext fun e' => (qtile_apply t _ r e').trans (scrQ m c t _ e')
  have hk : (fun (k : Fin 4096) (e' : Fin 64) => (scrAt m c t).2.1 (ix2 e' k))
      = Cert.Attn.proj (m ((c : Thread nD τ).loc main_arg0)) (m ((c : Thread nD τ).loc main_arg3)) (m ((c : Thread nD τ).loc main_arg4)) ⟨t.val / 8, by have := t.isLt; have : cfg0.N = 32 := N_0; omega⟩ :=
    funext fun k => funext fun e' => scrK m c t k e'
  have hv : (fun (k : Fin 4096) (e' : Fin 64) => (scrAt m c t).2.2 (ix2 k e'))
      = Cert.Attn.proj (m ((c : Thread nD τ).loc main_arg0)) (m ((c : Thread nD τ).loc main_arg5)) (m ((c : Thread nD τ).loc main_arg6)) ⟨t.val / 8, by have := t.isLt; have : cfg0.N = 32 := N_0; omega⟩ :=
    funext fun k => funext fun e' => scrV m c t k e'
  rw [hq, hk, hv]

/-- The result array after the run is the specification of the argument arrays. -/
theorem final3 (c : Dev nD) : (dats m 0 c).arrAt 3 cfg0.N = Cert.Attn.Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 3 _ (fun t _ => flushed3_eq m c t) cover3

/-- The run with the result named: the specification of the arguments, which end unchanged. -/
theorem run : θ_run defs (onTc (τ := τ) (main (F := Ideal))) ⟨m, fun _ => 0, ρ⟩ fun r => ∀ c : Dev nD,
      r.2.mem ((c.tc : Thread nD τ).loc main_v2) = Cert.Attn.Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Val

end
-- ==== Proof.RefSpec.lean ====
/-
  The reference program's result is the specification `Cert.Attn.Z` of its seven argument arrays.
  Each stage of the program is read at an index and identified with the matching piece of the specification:
  the three affine images, the constant 1 / sqrt 64 = 1/8, the scaled scores, the row maximum (a fold of `max`
  from the bottom element), the exponentials, their row sum, and the final weighted sum of the value rows.
-/
import proofs.«159111_j16844861735369_2_alg».proof.Proof.Gen.ReferenceIdeal.Read
import proofs.«159111_j16844861735369_2_alg».proof.Proof.Spec

noncomputable section

namespace Cert.Attn.Ref

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x0 : (⟨S4x4096x512, .f32⟩ : BufTy).Contents (Elt Ideal))
  (x1 : (⟨S512x64, .f32⟩ : BufTy).Contents (Elt Ideal)) (x2 : (⟨S64, .f32⟩ : BufTy).Contents (Elt Ideal))
  (x3 : (⟨S512x64, .f32⟩ : BufTy).Contents (Elt Ideal)) (x4 : (⟨S64, .f32⟩ : BufTy).Contents (Elt Ideal))
  (x5 : (⟨S512x64, .f32⟩ : BufTy).Contents (Elt Ideal)) (x6 : (⟨S64, .f32⟩ : BufTy).Contents (Elt Ideal))

/-! ## The three affine images -/

/-- The query rows: the first dot plus the broadcast bias is `proj`. -/
theorem v3_eq (p : Fin 4) (s : Fin 4096) (e : Fin 64) :
    val_main_v3 (F := Ideal) x0 x1 x2 (ix3 p s e) = proj x0 x1 x2 p s e := by
  rw [val_main_v3_apply, val_main_v0_apply, val_main_v2_apply, val_main_v1_apply]
  have hl : ∀ k : Fin 512, lidx_main_v0 (ix3 p s e) k = ix3 p s k := fun k => funext fun a => by
    match a with | ⟨0, _⟩ => rfl | ⟨1, _⟩ => rfl | ⟨2, _⟩ => rfl
  have hr : ∀ k : Fin 512, ridx_main_v0 (ix3 p s e) k = ix2 k e := fun k => funext fun a => by
    match a with | ⟨0, _⟩ => rfl | ⟨1, _⟩ => rfl
  have hb : idx_main_v1 (idx_main_v2 (ix3 p s e)) = ix1 e := funext fun a => by
    match a with | ⟨0, _⟩ => rfl
  simp only [hl, hr, hb]
  rfl

/-- The key rows. -/
theorem v7_eq (p : Fin 4) (s : Fin 4096) (e : Fin 64) :
    val_main_v7 (F := Ideal) x0 x3 x4 (ix3 p s e) = proj x0 x3 x4 p s e := by
  rw [val_main_v7_apply, val_main_v4_apply, val_main_v6_apply, val_main_v5_apply]
  have hl : ∀ k : Fin 512, lidx_main_v4 (ix3 p s e) k = ix3 p s k := fun k => funext fun a => by
    match a with | ⟨0, _⟩ => rfl | ⟨1, _⟩ => rfl | ⟨2, _⟩ => rfl
  have hr : ∀ k : Fin 512, ridx_main_v4 (ix3 p s e) k = ix2 k e := fun k => funext fun a => by
    match a with | ⟨0, _⟩ => rfl | ⟨1, _⟩ => rfl
  have hb : idx_main_v5 (idx_main_v6 (ix3 p s e)) = ix1 e := funext fun a => by
    match a with | ⟨0, _⟩ => rfl
  simp only [hl, hr, hb]
  rfl

/-- The value rows. -/
theorem v11_eq (p : Fin 4) (s : Fin 4096) (e : Fin 64) :
    val_main_v11 (F := Ideal) x0 x5 x6 (ix3 p s e) = proj x0 x5 x6 p s e := by
  rw [val_main_v11_apply, val_main_v8_apply, val_main_v10_apply, val_main_v9_apply]
  have hl : ∀ k : Fin 512, lidx_main_v8 (ix3 p s e) k = ix3 p s k := fun k => funext fun a => by
    match a with | ⟨0, _⟩ => rfl | ⟨1, _⟩ => rfl | ⟨2, _⟩ => rfl
  have hr : ∀ k : Fin 512, ridx_main_v8 (ix3 p s e) k = ix2 k e := fun k => funext fun a => by
    match a with | ⟨0, _⟩ => rfl | ⟨1, _⟩ => rfl
  have hb : idx_main_v9 (idx_main_v10 (ix3 p s e)) = ix1 e := funext fun a => by
    match a with | ⟨0, _⟩ => rfl
  simp only [hl, hr, hb]
  rfl

/-! ## The scale -/

/-- The word 0x3F800000 is 1. -/
theorem one_word : Ideal.ofBits .f32 0x3F800000#32 = 1 := by
  simp [Ideal.ofBits, Ideal.ieee, -EReal.coe_mul]; norm_num

/-- The word 0x42800000 is 64. -/
theorem sixtyfour_word : Ideal.ofBits .f32 0x42800000#32 = ((64 : ℝ) : EReal) := by
  simp [Ideal.ofBits, Ideal.ieee, -EReal.coe_mul]; norm_num

/-- The word 0xFF800000 is the bottom element. -/
theorem bot_word : Ideal.ofBits .f32 0xFF800000#32 = ⊥ := by
  simp [Ideal.ofBits, Ideal.ieee]

/-- 1 / sqrt 64 = 1/8. -/
theorem v13_eq (i : S_.Idx) : val_main_v13 (F := Ideal) i = ((1 / 8 : ℝ) : EReal) := by
  rw [val_main_v13_apply, val_main_v12_apply, val_main_cst_apply, val_main_cst_0_apply]
  show Ideal.div (Ideal.ofBits .f32 0x3F800000#32) (Ideal.sqrt (Ideal.ofBits .f32 0x42800000#32)) = _
  rw [one_word, sixtyfour_word, Ideal.sqrt_coe, if_neg (by norm_num)]
  have h8 : Real.sqrt 64 = 8 := by
    rw [show (64 : ℝ) = 8 ^ 2 by norm_num]; exact Real.sqrt_sq (by norm_num)
  rw [h8, Ideal.div_coe (by norm_num), one_mul]

/-! ## The scores -/

/-- The scaled scores of query row `q` against key row `k`. -/
theorem v16_eq (p : Fin 4) (q k : Fin 4096) :
    val_main_v16 (F := Ideal) x0 x1 x2 x3 x4 (ix3 p q k)
      = scoreRow (proj x0 x1 x2 p q) (proj x0 x3 x4 p) k := by
  rw [val_main_v16_apply, val_main_v14_apply, val_main_v15_apply, v13_eq]
  have hl : ∀ e : Fin 64, lidx_main_v14 (ix3 p q k) e = ix3 p q e := fun e => funext fun a => by
    match a with | ⟨0, _⟩ => rfl | ⟨1, _⟩ => rfl | ⟨2, _⟩ => rfl
  have hr : ∀ e : Fin 64, ridx_main_v14 (ix3 p q k) e = ix3 p k e := fun e => funext fun a => by
    match a with | ⟨0, _⟩ => rfl | ⟨1, _⟩ => rfl | ⟨2, _⟩ => rfl
  simp only [hl, hr, v3_eq, v7_eq]
  rfl

/-! ## The row maximum -/

/-- The reduced index (p, q) with coordinate `k` put back on the last axis is (p, q, k). -/
theorem lift_ix3 (h : S4x4096x4096.Reduces [2] S4x4096) (p : Fin 4) (q : Fin 4096)
    (k : Fin (S4x4096x4096.size 2)) : h.lift (ix2 p q) k = ix3 p q (⟨k.val, k.isLt⟩ : Fin 4096) := by
  funext c; apply Fin.ext
  fin_cases c <;> rfl

/-- From the bottom element, the reduction with a maximum body over the last axis is, at (p, q), the fold of `max`
    over that row. -/
theorem reduce_max_row (y : FVec Ideal S4x4096x4096 .f32) (p : Fin 4) (q : Fin 4096) :
    Host.reduce FloatOps.maximumf y (val_main_cst_1 (F := Ideal)) reducesTo_S4x4096x4096_S4x4096_d2 h_S_ (ix2 p q)
      = (Finset.univ : Finset (Fin 4096)).fold max ⊥ (fun k => y (ix3 p q k)) := by
  have h : S4x4096x4096.Reduces [2] S4x4096 := by decide
  rw [Host.reduce_eq_fold_single FloatOps.maximumf y _ reducesTo_S4x4096x4096_S4x4096_d2 h h_S_]
  have hf : (y ∘ h.lift (ix2 p q)) = fun k : Fin 4096 => y (ix3 p q k) :=
    funext fun k => congrArg y (lift_ix3 h p q k)
  rw [hf, val_main_cst_1_apply]
  show Finset.fold max (Ideal.ofBits .f32 0xFF800000#32) _ _ = _
  rw [bot_word]
  rfl

/-- The maximum of the bottom element and the fold of `max` over the row is the row's largest score. -/
theorem v19_eq (p : Fin 4) (q : Fin 4096) :
    val_main_v19 (F := Ideal) x0 x1 x2 x3 x4 (ix2 p q)
      = maxRow (proj x0 x1 x2 p q) (proj x0 x3 x4 p) := by
  rw [val_main_v19_apply, val_main_v18_apply, val_main_cst_2_apply]
  unfold val_main_v17
  have hx : ∀ k : Fin 4096, val_main_v16 (F := Ideal) x0 x1 x2 x3 x4 (ix3 p q k)
      = scoreRow (proj x0 x1 x2 p q) (proj x0 x3 x4 p) k := v16_eq x0 x1 x2 x3 x4 p q
  generalize val_main_v16 (F := Ideal) x0 x1 x2 x3 x4 = y at hx ⊢
  refine (congrArg (max (Ideal.ofBits .f32 0xFF800000#32)) (reduce_max_row y p q)).trans ?_
  rw [bot_word, max_eq_right bot_le]
  unfold maxRow
  exact congrArg (fun f => Finset.fold max ⊥ f (Finset.univ : Finset (Fin 4096))) (funext hx)

/-! ## The exponentials and their row sum -/

/-- Each score less the row maximum, exponentiated. -/
theorem v23_eq (p : Fin 4) (q k : Fin 4096) :
    val_main_v23 (F := Ideal) x0 x1 x2 x3 x4 (ix3 p q k)
      = expRow (proj x0 x1 x2 p q) (proj x0 x3 x4 p) k := by
  rw [val_main_v23_apply, val_main_v22_apply, val_main_v21_apply, val_main_v20_apply, v16_eq]
  have hi : idx_main_v20 (idx_main_v21 (ix3 p q k)) = ix2 p q := funext fun a => by
    match a with | ⟨0, _⟩ => rfl | ⟨1, _⟩ => rfl
  rw [hi, v19_eq]
  rfl

/-- The sum of the row's exponentials (from the zero word). -/
theorem v24_eq (p : Fin 4) (q : Fin 4096) :
    val_main_v24 (F := Ideal) x0 x1 x2 x3 x4 (ix2 p q)
      = ∑ k : Fin 4096, expRow (proj x0 x1 x2 p q) (proj x0 x3 x4 p) k := by
  rw [val_main_v24_apply, val_main_cst_3_apply]
  have hi : ∀ k : Fin 4096, idx_main_v24 (ix2 p q) k = ix3 p q k := fun k => funext fun a => by
    match a with | ⟨0, _⟩ => rfl | ⟨1, _⟩ => rfl | ⟨2, _⟩ => rfl
  simp only [hi, v23_eq]
  show Ideal.ofBits .f32 0x00000000#32 + _ = _
  rw [Ideal.ofBits_zero_f32, zero_add]

/-! ## The weights and the result -/

/-- The softmax weight of key `k` for query row `q`. -/
theorem v27_eq (p : Fin 4) (q k : Fin 4096) :
    val_main_v27 (F := Ideal) x0 x1 x2 x3 x4 (ix3 p q k)
      = Ideal.div (expRow (proj x0 x1 x2 p q) (proj x0 x3 x4 p) k)
          (∑ k' : Fin 4096, expRow (proj x0 x1 x2 p q) (proj x0 x3 x4 p) k') := by
  rw [val_main_v27_apply, val_main_v26_apply, val_main_v25_apply, v23_eq]
  have hi : idx_main_v25 (idx_main_v26 (ix3 p q k)) = ix2 p q := funext fun a => by
    match a with | ⟨0, _⟩ => rfl | ⟨1, _⟩ => rfl
  rw [hi, v24_eq]
  rfl

/-- The reference program's result array is the specification of its seven argument arrays. -/
theorem result_eq :
    val_main_v28 (F := Ideal) x0 x1 x2 x3 x4 x5 x6 = Cert.Attn.Z x0 x1 x2 x3 x4 x5 x6 := by
  funext i
  obtain ⟨p, q, e, rfl⟩ : ∃ (p : Fin 4) (q : Fin 4096) (e : Fin 64), i = ix3 p q e := ⟨i 0, i 1, i 2, eq_ix3 i⟩
  rw [val_main_v28_apply, Z_ix3]
  have hl : ∀ k : Fin 4096, lidx_main_v28 (ix3 p q e) k = ix3 p q k := fun k => funext fun a => by
    match a with | ⟨0, _⟩ => rfl | ⟨1, _⟩ => rfl | ⟨2, _⟩ => rfl
  have hr : ∀ k : Fin 4096, ridx_main_v28 (ix3 p q e) k = ix3 p k e := fun k => funext fun a => by
    match a with | ⟨0, _⟩ => rfl | ⟨1, _⟩ => rfl | ⟨2, _⟩ => rfl
  simp only [hl, hr, v27_eq, v11_eq]
  rfl

/-! ## The run -/

/-- Every weakly fair execution of the reference terminates with its result array at the specification of the seven
    argument arrays, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = Cert.Attn.Z (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v28_eq m c).trans (result_eq _ _ _ _ _ _ _)), (h c).2⟩)
    (Cert.ReferenceIdeal.Value.run (F := Ideal) m ρ)

end Cert.Attn.Ref

end
-- ==== Proof.lean ====
/-
  Fused single-head self-attention against its plain reference, over the extended reals.

  The kernel runs on a grid of 4 batches by 8 query tiles. At a batch's first tile it projects the whole 4096 x 512
  block of `x` with the three 512 x 64 weights laid side by side (one 512 x 192 product plus the side-by-side bias)
  and keeps the three 64-column slices — queries, keys (transposed), values — in scratch buffers that the batch's
  other seven tiles read back; every tile then takes its 512 query rows, forms the scores against all 4096 keys,
  scales them by 1/8, subtracts the row maximum, exponentiates, divides by the row sum and multiplies with the
  values. The reference computes the three projections with three separate products, the scale as 1 / sqrt 64, and
  the same softmax and product over whole arrays.

  Entry by entry both are one function of the seven arguments (`Cert.Attn.Z`): the column block `64 j + e` of the
  concatenated weight is column `e` of the `j`-th weight, so the fused product's slices are the three projections;
  sqrt 64 = 8; the maximum with the bottom element is the identity; nothing else differs but the tiling. No
  distributive law is used, so finiteness of the inputs is never needed. Each frame (termination, no fault, the
  arguments unchanged) is the run of the pipeline with the invariant "after any point of batch b the scratch buffers
  hold batch b's projections"; the rewriting pass changed nothing, so there is nothing to preserve.
-/
import proofs.«159111_j16844861735369_2_alg».proof.Defs
import proofs.«159111_j16844861735369_2_alg».proof.Proof.Gen.Kernel
import proofs.«159111_j16844861735369_2_alg».proof.Proof.Gen.KernelIdeal
import proofs.«159111_j16844861735369_2_alg».proof.Proof.Gen.ReferenceIdeal
import proofs.«159111_j16844861735369_2_alg».proof.Proof.Gen.Pre_finite_inputs
import proofs.«159111_j16844861735369_2_alg».proof.Proof.KFrame
import proofs.«159111_j16844861735369_2_alg».proof.Proof.KIValue
import proofs.«159111_j16844861735369_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Fr.frame m ρ

/-- So does the kernel read over the extended reals. -/
theorem frame_kernelIdeal : Cert.frame_KernelIdeal := fun m ρ _ => Cert.KernelIdeal.Fr.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories that agree on the arguments both programs end with the specification of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.Attn.Ref.run m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
